-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8 : Shape := ⟨1, ![8]⟩
abbrev S8x4096 : Shape := ⟨2, ![8, 4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S8x4096 : S_.BroadcastsInDim S8x4096 (![] : Fin 0 → Fin S8x4096.rank)
  reducesTo_S8x4096_S_d0_1 : S8x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4x2048x1024 .f32) (main_arg1 : FVec F S8 .f32) (main_arg2 : FVec F S8x4096 .f32) (main_arg3 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4x2048x1024 : Shape := ⟨3, ![4, 2048, 1024]⟩
abbrev S8 : Shape := ⟨1, ![8]⟩
abbrev S8x4096 : Shape := ⟨2, ![8, 4096]⟩
abbrev S4096x1024 : Shape := ⟨2, ![4096, 1024]⟩
abbrev S4x2048x8 : Shape := ⟨3, ![4, 2048, 8]⟩
abbrev S8192x8 : Shape := ⟨2, ![8192, 8]⟩
abbrev S1x8 : Shape := ⟨2, ![1, 8]⟩
abbrev S8192x1024 : Shape := ⟨2, ![8192, 1024]⟩
abbrev S1024x8 : Shape := ⟨2, ![1024, 8]⟩
abbrev S1024x1024 : Shape := ⟨2, ![1024, 1024]⟩
abbrev S1024x4096 : Shape := ⟨2, ![1024, 4096]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S8x4096, .f32⟩
  | .hbm, ⟨3, _⟩ => ⟨S4096x1024, .f32⟩
  | .hbm, ⟨4, _⟩ => ⟨S4x2048x8, .f32⟩
  | .hbm, ⟨5, _⟩ => ⟨S8192x8, .f32⟩
  | .hbm, ⟨6, _⟩ => ⟨S1x8, .f32⟩
  | .hbm, ⟨7, _⟩ => ⟨S4096x1024, .bf16⟩
  | .hbm, ⟨8, _⟩ => ⟨S8192x1024, .f32⟩
  | .hbm, ⟨9, _⟩ => ⟨S4x2048x1024, .f32⟩
  | .local _ .vmem, ⟨0, _⟩ => ⟨S1024x8, .f32⟩
  | .local _ .vmem, ⟨1, _⟩ => ⟨S1024x8, .f32⟩
  | .local _ .vmem, ⟨2, _⟩ => ⟨S1x8, .f32⟩
  | .local _ .vmem, ⟨3, _⟩ => ⟨S8x4096, .f32⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4x2048x1024_S4x2048x8_0_0_0 : S4x2048x1024.Slices ![0, 0, 0] S4x2048x8
  shapeCasts_S4x2048x8_S8192x8 : S4x2048x8.ShapeCasts S8192x8
  shapeCasts_S8_S1x8 : S8.ShapeCasts S1x8
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x4096_S8x4096_0_0 : ∀ a, (![0, 0] : Fin 2 → Nat) a + S8x4096.size a ≤ S8x4096.size a
  h_S8x4096 : 0 < S8x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S8192x1024_S4x2048x1024 : S8192x1024.ShapeCasts S4x2048x1024
  dot_S1024x8_S8x4096_S1024x4096_1_0_0_1_n_n_wf : DotDims.WF S1024x8 S8x4096 S1024x4096 [1] [0] [0] [1] [] []
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S8192x8.size a
  hwx0_0 : ∀ i : grid0.Coords, EltTy.bits .f32 = 32 ∨ (Rect.block (s := S8192x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x8_S8x4096_S1024x4096_1_0_0_1_n_n : DotDims S1024x8 S8x4096 S1024x4096 where
  lhsContracting := [1]
  rhsContracting := [0]
  lhsNonContracting := [0]
  rhsNonContracting := [1]
  lhsBatch := []
  rhsBatch := []
  wf := dot_S1024x8_S8x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8 : Shape := ⟨1, ![8]⟩
abbrev S8x4096 : Shape := ⟨2, ![8, 4096]⟩
abbrev S4096x1024 : Shape := ⟨2, ![4096, 1024]⟩
abbrev S4x2048x8 : Shape := ⟨3, ![4, 2048, 8]⟩
abbrev S1x1x8 : Shape := ⟨3, ![1, 1, 8]⟩
abbrev S4x2048x4096 : Shape := ⟨3, ![4, 2048, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S8x4096, .f32⟩
  | .hbm, ⟨3, _⟩ => ⟨S4096x1024, .f32⟩
  | .hbm, ⟨4, _⟩ => ⟨S4x2048x8, .f32⟩
  | .hbm, ⟨5, _⟩ => ⟨S1x1x8, .f32⟩
  | .hbm, ⟨6, _⟩ => ⟨S4x2048x8, .f32⟩
  | .hbm, ⟨7, _⟩ => ⟨S4x2048x8, .f32⟩
  | .hbm, ⟨8, _⟩ => ⟨S4x2048x8, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S4x2048x1024_S4x2048x8_0_0_0 : S4x2048x1024.Slices ![0, 0, 0] S4x2048x8
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S_S4x2048x4096 : S_.BroadcastsInDim S4x2048x4096 (![] : Fin 0 → Fin S4x2048x4096.rank)
  dot_S4x2048x8_S8x4096_S4x2048x4096_2_0_01_1_n_n_wf : DotDims.WF S4x2048x8 S8x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x8_S8x4096_S4x2048x4096_2_0_01_1_n_n : DotDims S4x2048x8 S8x4096 S4x2048x4096 where
  lhsContracting := [2]
  rhsContracting := [0]
  lhsNonContracting := [0, 1]
  rhsNonContracting := [1]
  lhsBatch := []
  rhsBatch := []
  wf := dot_S4x2048x8_S8x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The value both programs compute, one output entry at a time, over the extended reals.

  A token is a row of eight reals x_0 … x_7 (its first eight features). With eight angles θ, a first weight matrix
  w1 (8 × 4096) and one column w2c of the second weight matrix (4096 entries), the token's output entry for that
  column is
      Σ_{f < 4096}  max( Σ_{k < 8} cos(x_k + θ_k) · w1_{k,f} , 0 ) · w2c_f .
  `entry` states this over plain families indexed by `Fin 8` and `Fin 4096`; `at3` reads the four argument arrays
  into it at token (b, s) and output column d; `whole` lays the entries out over the [4, 2048, 1024] result and `rows`
  over the [8192, 1024] matrix whose row r = b·2048 + s is token (b, s). No algebraic law is involved: both programs
  form the two sums in this very shape, so nothing here needs the inputs to be finite.
-/
import Idealize.ShloMosaic.PureOps.Ideal
import Idealize.ShloMosaic.Lib.ValueIdx

noncomputable section

open scoped BigOperators

namespace Cert.CosMlp

open Idealize.ShloMosaic Idealize.ShloMosaic.ValueIdx

/-- One output entry from a token's eight features, the angles, the first weight matrix and one column of the second:
    the hidden unit f is the rectified sum over the eight wires of cos(x_k + θ_k) · w1_{k,f}, and the entry is the sum
    over the 4096 hidden units of that times w2c_f. The zero of the rectifier is kept as the word both programs print. -/
def entry (xr θ : Fin 8 → EReal) (w1 : Fin 8 → Fin 4096 → EReal) (w2c : Fin 4096 → EReal) : EReal :=
  ∑ f : Fin 4096, max (∑ k : Fin 8, Ideal.cos (xr k + θ k) * w1 k f) (Ideal.ofBits .f32 0x00000000#32) * w2c f

/-- Feature k of a token, as a column of the 1024-wide input. -/
def feat (k : Fin 8) : Fin 1024 := ⟨k.val, by have := k.isLt; omega⟩

theorem feat_val (k : Fin 8) : (feat k).val = k.val := rfl

/-- Output entry (b, s, d) from the four argument arrays. -/
def at3 (x : FVec Ideal ⟨3, ![4, 2048, 1024]⟩ .f32) (θ : FVec Ideal ⟨1, ![8]⟩ .f32)
    (w1 : FVec Ideal ⟨2, ![8, 4096]⟩ .f32) (w2 : FVec Ideal ⟨2, ![4096, 1024]⟩ .f32)
    (b : Fin 4) (s : Fin 2048) (d : Fin 1024) : EReal :=
  entry (fun k => x (ix3 b s (feat k))) (fun k => θ (ix1 k)) (fun k f => w1 (ix2 k f)) (fun f => w2 (ix2 f d))

/-- The result array [4, 2048, 1024]. -/
def whole (x : FVec Ideal ⟨3, ![4, 2048, 1024]⟩ .f32) (θ : FVec Ideal ⟨1, ![8]⟩ .f32)
    (w1 : FVec Ideal ⟨2, ![8, 4096]⟩ .f32) (w2 : FVec Ideal ⟨2, ![4096, 1024]⟩ .f32) :
    FVec Ideal ⟨3, ![4, 2048, 1024]⟩ .f32 := fun i =>
  at3 x θ w1 w2 ⟨(i 0).val, (i 0).isLt⟩ ⟨(i 1).val, (i 1).isLt⟩ ⟨(i 2).val, (i 2).isLt⟩

theorem whole_ix3 (x : FVec Ideal ⟨3, ![4, 2048, 1024]⟩ .f32) (θ : FVec Ideal ⟨1, ![8]⟩ .f32)
    (w1 : FVec Ideal ⟨2, ![8, 4096]⟩ .f32) (w2 : FVec Ideal ⟨2, ![4096, 1024]⟩ .f32)
    (b : Fin 4) (s : Fin 2048) (d : Fin 1024) : whole x θ w1 w2 (ix3 b s d) = at3 x θ w1 w2 b s d := rfl

/-- The same entries as the matrix [8192, 1024] of tokens by output columns: row r is token (r / 2048, r % 2048). -/
def rows (x : FVec Ideal ⟨3, ![4, 2048, 1024]⟩ .f32) (θ : FVec Ideal ⟨1, ![8]⟩ .f32)
    (w1 : FVec Ideal ⟨2, ![8, 4096]⟩ .f32) (w2 : FVec Ideal ⟨2, ![4096, 1024]⟩ .f32) :
    FVec Ideal ⟨2, ![8192, 1024]⟩ .f32 := fun j =>
  at3 x θ w1 w2 ⟨(j 0).val / 2048, by have h : (j 0).val < 8192 := (j 0).isLt; omega⟩
    ⟨(j 0).val % 2048, Nat.mod_lt _ (by decide)⟩ ⟨(j 1).val, (j 1).isLt⟩

/-- Row r = b·2048 + s of the matrix is token (b, s). -/
theorem rows_ix2 (x : FVec Ideal ⟨3, ![4, 2048, 1024]⟩ .f32) (θ : FVec Ideal ⟨1, ![8]⟩ .f32)
    (w1 : FVec Ideal ⟨2, ![8, 4096]⟩ .f32) (w2 : FVec Ideal ⟨2, ![4096, 1024]⟩ .f32)
    (b : Fin 4) (s : Fin 2048) (d : Fin 1024) (r : Fin 8192) (hr : r.val = b.val * 2048 + s.val) :
    rows x θ w1 w2 (ix2 r d) = at3 x θ w1 w2 b s d := by
  have hs := s.isLt
  have e1 : (⟨r.val / 2048, by have := r.isLt; omega⟩ : Fin 4) = b := Fin.ext (by show r.val / 2048 = b.val; omega)
  have e2 : (⟨r.val % 2048, Nat.mod_lt _ (by decide)⟩ : Fin 2048) = s := Fin.ext (by show r.val % 2048 = s.val; omega)
  show at3 x θ w1 w2 ⟨r.val / 2048, _⟩ ⟨r.val % 2048, _⟩ ⟨d.val, _⟩ = _
  rw [e1, e2]

end Cert.CosMlp

end
-- ==== Proof.RefValue.lean ====
/-
  The reference, read at an output entry.

  The reference slices the first eight features of every token, adds the angles (broadcast over tokens), takes the
  cosine, contracts the eight wires against w1, rectifies, and contracts the 4096 hidden units against w2. Read at
  entry (b, s, d) through the generated one-operation-at-a-time lemmas, that is the sum over f of
  max(Σ_k cos(x[b,s,k] + θ[k]) · w1[k,f], 0) · w2[f,d]: the specification's `entry`.
-/
import proofs.«146302_j65481071400550_2_alg».proof.Proof.Gen.ReferenceIdeal.Read
import proofs.«146302_j65481071400550_2_alg».proof.Proof.Spec

noncomputable section

open scoped BigOperators

namespace Cert.ReferenceIdeal.RefValue

open Cert.ReferenceIdeal Cert.ReferenceIdeal.Read Idealize.ShloMosaic Idealize.ShloMosaic.ValueIdx Cert.CosMlp

/-! The composed index maps of the generated lemmas, at indices written by coordinates. -/

theorem l7 (b : Fin 4) (s : Fin 2048) (d : Fin 1024) (f : Fin 4096) : lidx_main_v7 (ix3 b s d) f = ix3 b s f :=
  funext fun a => Fin.ext (by match a with | ⟨0, _⟩ => rfl | ⟨1, _⟩ => rfl | ⟨2, _⟩ => rfl)

theorem r7 (b : Fin 4) (s : Fin 2048) (d : Fin 1024) (f : Fin 4096) : ridx_main_v7 (ix3 b s d) f = ix2 f d :=
  funext fun a => Fin.ext (by match a with | ⟨0, _⟩ => rfl | ⟨1, _⟩ => rfl)

theorem l5 (b : Fin 4) (s : Fin 2048) (f : Fin 4096) (k : Fin 8) : lidx_main_v5 (ix3 b s f) k = ix3 b s k :=
  funext fun a => Fin.ext (by match a with | ⟨0, _⟩ => rfl | ⟨1, _⟩ => rfl | ⟨2, _⟩ => rfl)

theorem r5 (b : Fin 4) (s : Fin 2048) (f : Fin 4096) (k : Fin 8) : ridx_main_v5 (ix3 b s f) k = ix2 k f :=
  funext fun a => Fin.ext (by match a with | ⟨0, _⟩ => rfl | ⟨1, _⟩ => rfl)

theorem i0 (b : Fin 4) (s : Fin 2048) (k : Fin 8) : idx_main_v0 (ix3 b s k) = ix3 b s (feat k) :=
  funext fun a => Fin.ext (by match a with | ⟨0, _⟩ => rfl | ⟨1, _⟩ => rfl | ⟨2, _⟩ => rfl)

theorem i12 (b : Fin 4) (s : Fin 2048) (k : Fin 8) : idx_main_v1 (idx_main_v2 (ix3 b s k)) = ix1 k :=
  funext fun a => Fin.ext (by match a with | ⟨0, _⟩ => rfl)

/-- The cosine layer at token (b, s), wire k. -/
theorem wire_apply (x : FVec Ideal S4x2048x1024 .f32) (θ : FVec Ideal S8 .f32) (b : Fin 4) (s : Fin 2048) (k : Fin 8) :
    val_main_v4 (F := Ideal) x θ (ix3 b s k) = Ideal.cos (x (ix3 b s (feat k)) + θ (ix1 k)) := by
  rw [val_main_v4_apply, val_main_v3_apply, val_main_v0_apply, val_main_v2_apply, val_main_v1_apply, i0, i12]
  rfl

/-- The rectified hidden unit f of token (b, s). -/
theorem hidden_apply (x : FVec Ideal S4x2048x1024 .f32) (θ : FVec Ideal S8 .f32) (w1 : FVec Ideal S8x4096 .f32)
    (b : Fin 4) (s : Fin 2048) (f : Fin 4096) :
    val_main_v6 (F := Ideal) x θ w1 (ix3 b s f)
      = max (∑ k : Fin 8, Ideal.cos (x (ix3 b s (feat k)) + θ (ix1 k)) * w1 (ix2 k f)) (Ideal.ofBits .f32 0x00000000#32) := by
  rw [val_main_v6_apply, val_main_v5_apply, val_main_call0_v0_apply, val_main_call0_cst_apply]
  refine congrArg (fun z => max z (Ideal.ofBits .f32 0x00000000#32)) (Finset.sum_congr rfl fun k _ => ?_)
  rw [l5, r5, wire_apply]

/-- THE REFERENCE IS THE SPECIFICATION: its result, as a function of the four arguments, is `whole`. -/
theorem ref_eq (x : FVec Ideal S4x2048x1024 .f32) (θ : FVec Ideal S8 .f32) (w1 : FVec Ideal S8x4096 .f32)
    (w2 : FVec Ideal S4096x1024 .f32) : val_main_v7 (F := Ideal) x θ w1 w2 = whole x θ w1 w2 := by
  funext i
  obtain ⟨b, s, d, rfl⟩ : ∃ (b : Fin 4) (s : Fin 2048) (d : Fin 1024), i = ix3 b s d := ⟨i 0, i 1, i 2, eq_ix3 i⟩
  rw [val_main_v7_apply, whole_ix3]
  unfold at3 entry
  refine Finset.sum_congr rfl fun f _ => ?_
  rw [l7, r7, hidden_apply]

end Cert.ReferenceIdeal.RefValue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Payload.lean ====
/-
  The kernel body's stored value, read at an entry of the block.

  At one grid point the body loads a [1024, 8] block of token features, the angles as a [1, 8] row, w1 whole and w2
  whole, and stores  relu(cos(block + angles) · w1) · w2  (two matrix products into zero accumulators; the change of
  format between them is the identity on the extended reals). At row p and column q of the stored [1024, 1024] block
  that is the specification's `entry` of row p of the loaded block, the angle row, w1 and column q of w2.
-/
import proofs.«146302_j65481071400550_2_alg».proof.Proof.Gen.KernelIdeal.Skeleton
import proofs.«146302_j65481071400550_2_alg».proof.Proof.Spec
import proofs.«146302_j65481071400550_2_alg».proof.Proof.LibMatmulPlain
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.CosMlp

/-- The cosine of the block plus the angle row, at row p and wire k. -/
theorem wire_apply (x0 : FVec Ideal S1024x8 .f32) (x1 : FVec Ideal S1x8 .f32) (p : Fin 1024) (k : Fin 8) :
    cos (addf (shapeCast S1024x8 x0 Facts₀.shapeCasts_S1024x8_S1024x8)
      (broadcastTo S1024x8 (shapeCast S1x8 x1 Facts₀.shapeCasts_S1x8_S1x8) Facts₀.broadcasts_S1x8_S1024x8)) (ix2 p k)
      = Ideal.cos (x0 (ix2 p k) + x1 (ix2 (0 : Fin 1) k)) := by
  rw [shapeCast_self, shapeCast_self]
  show Ideal.cos (x0 (ix2 p k) + broadcastTo S1024x8 x1 Facts₀.broadcasts_S1x8_S1024x8 (ix2 p k)) = _
  rw [broadcastTo_1b_ab_apply]

/-- THE STORED BLOCK AT AN ENTRY. -/
theorem pay_apply (x0 : FVec Ideal S1024x8 .f32) (x1 : FVec Ideal S1x8 .f32) (x2 : FVec Ideal S8x4096 .f32)
    (x3 : FVec Ideal S4096x1024 .bf16) (p q : Fin 1024) :
    k0_pay1 (F := Ideal) x0 x1 x2 x3 (ix2 p q)
      = entry (fun k => x0 (ix2 p k)) (fun k => x1 (ix2 (0 : Fin 1) k)) (fun k f => x2 (ix2 k f)) (fun f => x3 (ix2 f q)) := by
  unfold k0_pay1 entry
  dsimp only
  refine (Cert.LibMatmulPlain.matmul_plain_zero_apply _ rfl none _ _ p q).trans ?_
  refine Finset.sum_congr rfl fun f _ => ?_
  rw [shapeCast_self x3]
  show max (FloatOps.matmul dot_S1024x8_S8x4096_S1024x4096_1_0_0_1_n_n (some .fp32) _ x2 (constant (F := Ideal) S1024x4096 .f32 0x00000000#32) (ix2 p f))
      (Ideal.ofBits .f32 0x00000000#32) * x3 (ix2 f q) = _
  rw [Cert.LibMatmulPlain.matmul_plain_zero_apply dot_S1024x8_S8x4096_S1024x4096_1_0_0_1_n_n rfl (some .fp32) _ x2 p f]
  refine congrArg (fun z => max z (Ideal.ofBits .f32 0x00000000#32) * x3 (ix2 f q)) (Finset.sum_congr rfl fun k _ => ?_)
  rw [wire_apply]

end Cert.KernelIdeal.Body

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.Entry.lean ====
/-
  What the region finds in its windows' arrays, read at an entry.

  Before the call the program slices the first eight features of every token out of x, lays the [4, 2048, 8] slice out
  as the matrix [8192, 8] (row b·2048 + s is token (b, s)), lays the angle vector out as a [1, 8] row, and changes w2's
  format (the identity on the extended reals); w1 is passed as it is.
-/
import proofs.«146302_j65481071400550_2_alg».proof.Proof.Gen.KernelIdeal.Frame
import proofs.«146302_j65481071400550_2_alg».proof.Proof.Spec
import proofs.«146302_j65481071400550_2_alg».proof.Proof.LibRows
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.ValueIdx Cert.CosMlp

variable (m : (ℓ : Loc nD τ sig) → Buf (Elt Ideal) ℓ)

/-- The token matrix is the slice of x re-laid. -/
theorem tokens_eq (c : Dev nD) :
    (V m c main_v1 : S8192x8.Idx → EReal)
      = shapeCast S8192x8 (extractStridedSlice S4x2048x8 ![0, 0, 0] (m ((c : Thread nD τ).loc main_arg0))
          Facts₀.slices_S4x2048x1024_S4x2048x8_0_0_0) Facts₀.shapeCasts_S4x2048x8_S8192x8 := by
  show StableHlo.after hostOps0 (fun b => m (c, b)) (Proc.devRef .tc main_v1) = _
  after_results <;> rfl

/-- The angle row is the angle vector re-laid. -/
theorem angles_eq (c : Dev nD) :
    (V m c main_v2 : S1x8.Idx → EReal) = shapeCast S1x8 (m ((c : Thread nD τ).loc main_arg1)) Facts₀.shapeCasts_S8_S1x8 := by
  show StableHlo.after hostOps0 (fun b => m (c, b)) (Proc.devRef .tc main_v2) = _
  after_results <;> rfl

/-- The second weight matrix in the narrower format. -/
theorem w2_eq (c : Dev nD) :
    V m c main_v3 = (truncf .bf16 (m ((c : Thread nD τ).loc main_arg3) : FVec Ideal S4096x1024 .f32)
      Facts₀.bitsLt_bf16_f32 : FVec Ideal S4096x1024 .bf16) := by
  show StableHlo.after hostOps0 (fun b => m (c, b)) (Proc.devRef .tc main_v3) = _
  after_results <;> rfl

/-- Row r = b·2048 + s of the token matrix, at wire k, is feature k of token (b, s). -/
theorem tokens_apply (c : Dev nD) (b : Fin 4) (s : Fin 2048) (k : Fin 8) (r : Fin 8192) (hr : r.val = b.val * 2048 + s.val) :
    (V m c main_v1 : S8192x8.Idx → EReal) (ix2 r k)
      = (m ((c : Thread nD τ).loc main_arg0) : S4x2048x1024.Idx → EReal) (ix3 b s (feat k)) := by
  rw [tokens_eq, Cert.LibRows.flatten_rows_apply _ _ b s k r hr]
  refine extractStridedSlice_apply _ _ _ _ _ fun a => ?_
  match a with
  | ⟨0, _⟩ => show b.val = 0 + b.val; omega
  | ⟨1, _⟩ => show s.val = 0 + s.val; omega
  | ⟨2, _⟩ => show (feat k).val = 0 + k.val; rw [feat_val]; omega

/-- The angle row at wire k is the angle vector's entry k. -/
theorem angles_apply (c : Dev nD) (k : Fin 8) :
    (V m c main_v2 : S1x8.Idx → EReal) (ix2 (0 : Fin 1) k) = (m ((c : Thread nD τ).loc main_arg1) : S8.Idx → EReal) (ix1 k) := by
  rw [angles_eq, shapeCast_a_1a_apply]

/-- The narrower-format second weight matrix has w2's entries. -/
theorem w2_apply (c : Dev nD) (i : S4096x1024.Idx) :
    (V m c main_v3 : S4096x1024.Idx → EReal) i = (m ((c : Thread nD τ).loc main_arg3) : S4096x1024.Idx → EReal) i := by
  rw [w2_eq]
  rfl

end Cert.KernelIdeal.Entry

end
-- ==== Proof.Blocks.lean ====
/-
  From the grid's blocks to the whole array.

  Grid point t works on tokens t·1024 … t·1024 + 1023: its block of the token matrix is rows t·1024 + p, the angle
  row, w1 and w2 are whole at every point, and it writes rows t·1024 + p of the [8192, 1024] output. So what point t
  writes back is block t of the one matrix `rows` of the specification, the eight blocks cover the output, and the
  output array ends holding `rows` of the four arguments.
-/
import proofs.«146302_j65481071400550_2_alg».proof.Proof.Gen.KernelIdeal.Frame
import proofs.«146302_j65481071400550_2_alg».proof.Proof.Spec
import proofs.«146302_j65481071400550_2_alg».proof.Proof.Payload
import proofs.«146302_j65481071400550_2_alg».proof.Proof.Entry
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.CosMlp

variable (m : (ℓ : Loc nD τ sig) → Buf (Elt Ideal) ℓ)

theorem zero_offsets : (![0, 0] : Fin 2 → Nat) = fun _ => 0 := funext fun a => by fin_cases a <;> rfl

/-- The stored block at a point whose loaded blocks are rows T·1024 + p of the token matrix and the other three
    operands whole: at block entry y, placed at array entry i = (T·1024 + y₀, y₁), it is `rows` at i. -/
theorem point_eq (x : FVec Ideal S4x2048x1024 .f32) (θ : FVec Ideal S8 .f32) (w1 : FVec Ideal S8x4096 .f32)
    (w2 : FVec Ideal S4096x1024 .f32)
    (X0 : FVec Ideal S1024x8 .f32) (X1 : FVec Ideal S1x8 .f32) (X2 : FVec Ideal S8x4096 .f32) (X3 : FVec Ideal S4096x1024 .bf16)
    (T : Nat) (hT : T < 8)
    (h0 : ∀ (p : Fin 1024) (k : Fin 8) (b : Fin 4) (s : Fin 2048), T * 1024 + p.val = b.val * 2048 + s.val →
      X0 (ix2 p k) = x (ix3 b s (feat k)))
    (h1 : ∀ k : Fin 8, X1 (ix2 (0 : Fin 1) k) = θ (ix1 k))
    (h2 : ∀ (k : Fin 8) (f : Fin 4096), X2 (ix2 k f) = w1 (ix2 k f))
    (h3 : ∀ (f : Fin 4096) (q : Fin 1024), X3 (ix2 f q) = w2 (ix2 f q))
    (y : S1024x1024.Idx) (i : S8192x1024.Idx) (hi0 : (i 0).val = T * 1024 + (y 0).val) (hi1 : (i 1).val = (y 1).val) :
    k0_pay1 (F := Ideal) X0 X1 X2 X3 y = rows x θ w1 w2 i := by
  obtain ⟨p, q, rfl⟩ : ∃ (p : Fin 1024) (q : Fin 1024), y = ix2 p q := ⟨y 0, y 1, eq_ix2 y⟩
  obtain ⟨r, d, rfl⟩ : ∃ (r : Fin 8192) (d : Fin 1024), i = ix2 r d := ⟨i 0, i 1, eq_ix2 i⟩
  have hr : r.val = T * 1024 + p.val := hi0
  have hd : d = q := Fin.ext hi1
  subst hd
  have hp := p.isLt
  have hb : r.val / 2048 < 4 := by omega
  have hs : r.val % 2048 < 2048 := Nat.mod_lt _ (by decide)
  have hrow : r.val = (⟨r.val / 2048, hb⟩ : Fin 4).val * 2048 + (⟨r.val % 2048, hs⟩ : Fin 2048).val := by
    show r.val = r.val / 2048 * 2048 + r.val % 2048
    omega
  rw [Cert.KernelIdeal.Body.pay_apply, rows_ix2 x θ w1 w2 ⟨r.val / 2048, hb⟩ ⟨r.val % 2048, hs⟩ d r hrow]
  unfold at3
  have e0 : (fun k => X0 (ix2 p k)) = fun k => x (ix3 (⟨r.val / 2048, hb⟩ : Fin 4) (⟨r.val % 2048, hs⟩ : Fin 2048) (feat k)) :=
    funext fun k => h0 p k _ _ (hr.symm.trans hrow)
  have e1 : (fun k => X1 (ix2 (0 : Fin 1) k)) = fun k => θ (ix1 k) := funext h1
  have e2 : (fun k f => X2 (ix2 k f)) = fun k f => w1 (ix2 k f) := funext fun k => funext fun f => h2 k f
  have e3 : (fun f => X3 (ix2 f d)) = fun f => w2 (ix2 f d) := funext fun f => h3 f d
  rw [e0, e1, e2, e3]

/-- The printed index maps over the grid: the token block and the output block are block t of their arrays, the other
    three windows sit at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of `rows` of the four arguments. -/
theorem flushed_eq (c : Dev nD) (t : Fin cfg0.N) :
    (dats m 0 c).flushed 4 t = ((cfg0.win 4).blk t).view.read (Elt Ideal)
      (rows (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero zero_offsets]
  simp only [View.ld_unit_zero (S := S1024x8) zero_offsets, View.ld_unit_zero (S := S1x8) zero_offsets,
    View.ld_unit_zero (S := S8x4096) zero_offsets, View.ld_unit_zero (S := S4096x1024) zero_offsets]
  obtain ⟨e00, e01, e10, e11, e20, e21, e30, e31, e40, e41⟩ := idx_facts t
  have ht : t.val < 8 := lt_of_lt_of_eq t.isLt (show cfg0.N = 8 from N_0)
  funext j
  show k0_pay1 (F := Ideal) (iblk m c 0 t) (iblk m c 1 t) (iblk m c 2 t) (iblk m c 3 t) j
    = rows _ _ _ _ (((cfg0.win 4).blk t).view.emb j)
  refine point_eq _ _ _ _ _ _ _ _ t.val ht ?_ ?_ ?_ ?_ j _ ?_ ?_
  · intro p k b s h
    show V m c main_v1 (((cfg0.win 0).blk t).view.emb (ix2 p k)) = _
    have hp := p.isLt
    have hi : ((cfg0.win 0).blk t).view.emb (ix2 p k) = ix2 (⟨t.val * 1024 + p.val, by omega⟩ : Fin 8192) k := by
      funext a; apply Fin.ext
      match a with
      | ⟨0, _⟩ => show win0_0.index t (0 : Fin 2) * 1024 + 1 * p.val = t.val * 1024 + p.val; rw [e00]; omega
      | ⟨1, _⟩ => show win0_0.index t (1 : Fin 2) * 8 + 1 * k.val = k.val; rw [e01]; omega
    rw [hi]
    exact Cert.KernelIdeal.Entry.tokens_apply m c b s k _ h
  · intro k
    show V m c main_v2 (((cfg0.win 1).blk t).view.emb (ix2 (0 : Fin 1) k)) = _
    have hi : ((cfg0.win 1).blk t).view.emb (ix2 (0 : Fin 1) k) = ix2 (0 : Fin 1) k := by
      funext a; apply Fin.ext
      match a with
      | ⟨0, _⟩ => show win0_1.index t (0 : Fin 2) * 1 + 1 * 0 = 0; rw [e10]
      | ⟨1, _⟩ => show win0_1.index t (1 : Fin 2) * 8 + 1 * k.val = k.val; rw [e11]; omega
    rw [hi]
    exact Cert.KernelIdeal.Entry.angles_apply m c k
  · intro k f
    show V m c main_arg2 (((cfg0.win 2).blk t).view.emb (ix2 k f)) = _
    have hi : ((cfg0.win 2).blk t).view.emb (ix2 k f) = ix2 k f := by
      funext a; apply Fin.ext
      match a with
      | ⟨0, _⟩ => show win0_2.index t (0 : Fin 2) * 8 + 1 * k.val = k.val; rw [e20]; omega
      | ⟨1, _⟩ => show win0_2.index t (1 : Fin 2) * 4096 + 1 * f.val = f.val; rw [e21]; omega
    rw [hi, V_main_arg2]
  · intro f q
    show V m c main_v3 (((cfg0.win 3).blk t).view.emb (ix2 f q)) = _
    have hi : ((cfg0.win 3).blk t).view.emb (ix2 f q) = ix2 f q := by
      funext a; apply Fin.ext
      match a with
      | ⟨0, _⟩ => show win0_3.index t (0 : Fin 2) * 4096 + 1 * f.val = f.val; rw [e30]; omega
      | ⟨1, _⟩ => show win0_3.index t (1 : Fin 2) * 1024 + 1 * q.val = q.val; rw [e31]; omega
    rw [hi]
    exact Cert.KernelIdeal.Entry.w2_apply m c _
  · show win0_4.index t (0 : Fin 2) * 1024 + 1 * (j 0).val = t.val * 1024 + (j 0).val
    rw [e40]; omega
  · show win0_4.index t (1 : Fin 2) * 1024 + 1 * (j 1).val = (j 1).val
    rw [e41]; omega

/-- An entry of the output array is in point t's block iff each coordinate is in the block's range. -/
theorem mem_blk (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v4).slice (win0_4.rect t)).set ↔ _
  rw [View.set_slice_whole, Rect.mem_set_unit]
  exact Iff.rfl

/-- Every entry is in the block of the point that owns its row: row r is written at point r / 1024. -/
theorem cover (i : S8192x1024.Idx) :
    ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = (i 0).val / 1024 :=
    ⟨⟨(i 0).val / 1024, by rw [show cfg0.N = 8 from N_0]; omega⟩, rfl⟩
  obtain ⟨e00, e01, e10, e11, e20, e21, e30, e31, e40, e41⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e40, ht]; omega
  | ⟨1, _⟩ =>
    show win0_4.index t (1 : Fin 2) * 1024 ≤ (i 1).val ∧ (i 1).val < win0_4.index t (1 : Fin 2) * 1024 + 1024
    rw [e41]; omega

/-- THE OUTPUT ARRAY after the run is `rows` of the four arguments. -/
theorem final (c : Dev nD) :
    (dats m 0 c).arrAt 4 cfg0.N = rows (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

end Cert.KernelIdeal.Blocks

end
-- ==== Proof.Result.lean ====
/-
  The program's result: the output matrix re-laid as [4, 2048, 1024].

  After the call the program lays the [8192, 1024] output matrix out as [4, 2048, 1024]: entry (b, s, d) of the result
  is row b·2048 + s of the matrix at column d, which is the specification's entry for token (b, s) and column d.
-/
import proofs.«146302_j65481071400550_2_alg».proof.Proof.Gen.KernelIdeal.Frame
import proofs.«146302_j65481071400550_2_alg».proof.Proof.Spec
import proofs.«146302_j65481071400550_2_alg».proof.Proof.Blocks
import proofs.«146302_j65481071400550_2_alg».proof.Proof.LibRows
import Idealize.ShloMosaic.Lib.StableHlo.Run
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.ValueIdx Cert.CosMlp

variable (m : (ℓ : Loc nD τ sig) → Buf (Elt Ideal) ℓ) (ρ : Dev nD → PrngReg)

/-- The matrix `rows` re-laid as [4, 2048, 1024] is `whole`. -/
theorem relaid (x : FVec Ideal S4x2048x1024 .f32) (θ : FVec Ideal S8 .f32) (w1 : FVec Ideal S8x4096 .f32)
    (w2 : FVec Ideal S4096x1024 .f32) :
    shapeCast S4x2048x1024 (rows x θ w1 w2) Facts₀.shapeCasts_S8192x1024_S4x2048x1024 = whole x θ w1 w2 := by
  funext i
  obtain ⟨b, s, d, rfl⟩ : ∃ (b : Fin 4) (s : Fin 2048) (d : Fin 1024), i = ix3 b s d := ⟨i 0, i 1, i 2, eq_ix3 i⟩
  have hb := b.isLt
  have hs := s.isLt
  rw [Cert.LibRows.unflatten_rows_apply _ _ b s d (⟨b.val * 2048 + s.val, by omega⟩ : Fin 8192) rfl,
    rows_ix2 x θ w1 w2 b s d _ rfl, whole_ix3]

/-- What the lines after the call leave in the result buffer. -/
theorem result_eq (c : Dev nD) :
    Pipeline.afterTail₀ cfgs (dats m) 0 (V0 m) [hostOps1] c main_v5
      = whole (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4)
      = rows (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c _ _ 4).trans (Cert.KernelIdeal.Blocks.final m c)
  rw [hA]
  exact relaid _ _ _ _

/-- THE KERNEL'S RUN, READ: every weakly fair execution ends with the result buffer at `whole` of the four arguments and
    the arguments unchanged. The result is what the line after the call makes of the output array; an argument no window
    stages is left as launched by the lines around the call, and w1, which window 2 stages, ends at its entry contents. -/
theorem run : θ_run defs (onTc (τ := τ) (main (F := Ideal))) ⟨m, fun _ => 0, ρ⟩ (fun r => ∀ c : Dev nD,
      r.2.mem ((c.tc : Thread nD τ).loc main_v5)
        = whole (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.lean ====
/-
  A two-layer feed-forward network on cosine features, against its plain array reference, over the extended reals.

  Every token contributes its first eight features x_0 … x_7. With angles θ (8), weights w1 (8 × 4096) and w2
  (4096 × 1024), both programs compute, for token (b, s) and output column d,
      Σ_{f < 4096}  max( Σ_{k < 8} cos(x[b,s,k] + θ[k]) · w1[k,f] , 0 ) · w2[f,d] .
  The kernel walks the 8192 tokens in eight blocks of 1024 rows, each block two matrix products into zero
  accumulators with a change of number format between them, and re-lays the [8192, 1024] output as [4, 2048, 1024];
  the reference contracts the [4, 2048, ·] arrays directly. Over the extended reals a change of format is the identity
  and a matrix product into a zero accumulator is the plain sum, so the two sides are the same double sum, term by term
  in the same order: no distributivity or cancellation is used, and the finiteness of the inputs is never needed.

  Proof/Spec.lean states the entry; Proof/RefValue.lean reads the reference at an entry; Proof/Payload.lean reads the
  kernel body's stored block at an entry; Proof/Entry.lean reads what the call finds in its operands; Proof/Blocks.lean
  goes from the eight blocks to the output matrix; Proof/Result.lean re-lays it and states the kernel's run. The three
  termination-and-unchanged-arguments claims are the generated runs; the idealization rewrote nothing.
-/
import proofs.«146302_j65481071400550_2_alg».proof.Defs
import proofs.«146302_j65481071400550_2_alg».proof.Proof.Gen.Kernel
import proofs.«146302_j65481071400550_2_alg».proof.Proof.Gen.Kernel.Skeleton
import proofs.«146302_j65481071400550_2_alg».proof.Proof.Gen.Kernel.Launch
import proofs.«146302_j65481071400550_2_alg».proof.Proof.Gen.Kernel.Points
import proofs.«146302_j65481071400550_2_alg».proof.Proof.Gen.Kernel.Frame
import proofs.«146302_j65481071400550_2_alg».proof.Proof.Gen.KernelIdeal
import proofs.«146302_j65481071400550_2_alg».proof.Proof.Gen.KernelIdeal.Skeleton
import proofs.«146302_j65481071400550_2_alg».proof.Proof.Gen.KernelIdeal.Launch
import proofs.«146302_j65481071400550_2_alg».proof.Proof.Gen.KernelIdeal.Points
import proofs.«146302_j65481071400550_2_alg».proof.Proof.Gen.KernelIdeal.Frame
import proofs.«146302_j65481071400550_2_alg».proof.Proof.Gen.ReferenceIdeal
import proofs.«146302_j65481071400550_2_alg».proof.Proof.Gen.Pre_finite_inputs
import proofs.«146302_j65481071400550_2_alg».proof.Proof.Gen.ReferenceIdeal.Run
import proofs.«146302_j65481071400550_2_alg».proof.Proof.Gen.ReferenceIdeal.Read
import proofs.«146302_j65481071400550_2_alg».proof.Proof.RefValue
import proofs.«146302_j65481071400550_2_alg».proof.Proof.Result
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four arguments, the idealized kernel's result and the idealized reference's result are
    both the specification's array of those arguments. -/
theorem algebraic : Cert.algebraic_KernelIdeal_ReferenceIdeal := by
  intro m ρ m' ρ' _ hagree
  refine ⟨fun c => Cert.CosMlp.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
